-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x64 : Shape := ⟨2, ![1024, 64]⟩
abbrev S100000x64 : Shape := ⟨2, ![100000, 64]⟩
abbrev S_ : Shape := ⟨0, ![]⟩

class Facts : Prop where
  bcast_S_S1024x64 : S_.BroadcastsInDim S1024x64 (![] : Fin 0 → Fin S1024x64.rank)
  reducesTo_S1024x64_S_d0_1 : S1024x64.ReducesTo [0, 1] S_
  h_S_ : 0 < S_.numel
  bcast_S_S100000x64 : S_.BroadcastsInDim S100000x64 (![] : Fin 0 → Fin S100000x64.rank)
  reducesTo_S100000x64_S_d0_1 : S100000x64.ReducesTo [0, 1] S_

variable [Facts]

def fn {F : FTy → Type} [FloatOps F] (main_arg0 : FVec F S1024x64 .f32) (main_arg1 : FVec F S100000x64 .f32) : IVec S_ 1 :=
  let main_v0 : FVec F S1024x64 .f32 := Host.absf main_arg0
  let main_cst : FVec F S_ .f32 := constant S_ .f32 0x7F800000#32
  let main_v1 : FVec F S1024x64 .f32 := broadcastInDim S1024x64 ![] bcast_S_S1024x64 main_cst
  let main_v2 : IVec S1024x64 1 := cmpf .olt main_v0 main_v1
  let main_c : IVec S_ 1 := constantI S_ 1 1#1
  let main_v3 : IVec S_ 1 := (fun x v => Host.reduce IntOp.andi x v reducesTo_S1024x64_S_d0_1 h_S_) main_v2 main_c
  let main_v4 : FVec F S100000x64 .f32 := Host.absf main_arg1
  let main_cst_0 : FVec F S_ .f32 := constant S_ .f32 0x7F800000#32
  let main_v5 : FVec F S100000x64 .f32 := broadcastInDim S100000x64 ![] bcast_S_S100000x64 main_cst_0
  let main_v6 : IVec S100000x64 1 := cmpf .olt main_v4 main_v5
  let main_c_1 : IVec S_ 1 := constantI S_ 1 1#1
  let main_v7 : IVec S_ 1 := (fun x v => Host.reduce IntOp.andi x v reducesTo_S100000x64_S_d0_1 h_S_) main_v6 main_c_1
  let main_v8 : IVec S_ 1 := andi main_v3 main_v7
  main_v8
-- ==== Kernel.lean ====
abbrev S1024x64 : Shape := ⟨2, ![1024, 64]⟩
abbrev S100000x64 : Shape := ⟨2, ![100000, 64]⟩
abbrev S64x1024 : Shape := ⟨2, ![64, 1024]⟩
abbrev S64x100000 : Shape := ⟨2, ![64, 100000]⟩
abbrev S100000x1024 : Shape := ⟨2, ![100000, 1024]⟩
abbrev S64x5120 : Shape := ⟨2, ![64, 5120]⟩
abbrev S5120x1024 : Shape := ⟨2, ![5120, 1024]⟩
abbrev S1024x100000 : Shape := ⟨2, ![1024, 100000]⟩

abbrev nBuf : Space → Nat
  | .hbm => 6
  | .vmem => 5
  | .smem => 0
  | _ => 0

abbrev bufTy : (tb : Table) → Fin (tcTables nBuf tb) → BufTy
  | .hbm, ⟨0, _⟩ => ⟨S1024x64, .f32⟩
  | .hbm, ⟨1, _⟩ => ⟨S100000x64, .f32⟩
  | .hbm, ⟨2, _⟩ => ⟨S64x1024, .f32⟩
  | .hbm, ⟨3, _⟩ => ⟨S64x100000, .f32⟩
  | .hbm, ⟨4, _⟩ => ⟨S100000x1024, .f32⟩
  | .hbm, ⟨5, _⟩ => ⟨S1024x100000, .f32⟩
  | .local _ .vmem, ⟨0, _⟩ => ⟨S64x1024, .f32⟩
  | .local _ .vmem, ⟨1, _⟩ => ⟨S64x5120, .f32⟩
  | .local _ .vmem, ⟨2, _⟩ => ⟨S64x5120, .f32⟩
  | .local _ .vmem, ⟨3, _⟩ => ⟨S5120x1024, .f32⟩
  | .local _ .vmem, ⟨4, _⟩ => ⟨S5120x1024, .f32⟩
  | _, _ => ⟨S1024x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S64x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S64x5120 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5120x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  transposes_S1024x64_S64x1024_1_0 : S1024x64.Transposes [1, 0] S64x1024
  transposes_S100000x64_S64x100000_1_0 : S100000x64.Transposes [1, 0] S64x100000
  inb_S64x5120_S64x5120_0_0 : ∀ a, (![0, 0] : Fin 2 → Nat) a + S64x5120.size a ≤ S64x5120.size a
  h_S64x5120 : 0 < S64x5120.numel
  shapeCasts_S64x5120_S64x5120 : S64x5120.ShapeCasts S64x5120
  inb_S64x1024_S64x1024_0_0 : ∀ a, (![0, 0] : Fin 2 → Nat) a + S64x1024.size a ≤ S64x1024.size a
  h_S64x1024 : 0 < S64x1024.numel
  shapeCasts_S64x1024_S64x1024 : S64x1024.ShapeCasts S64x1024
  inb_S5120x1024_S5120x1024_0_0 : ∀ a, (![0, 0] : Fin 2 → Nat) a + S5120x1024.size a ≤ S5120x1024.size a
  h_S5120x1024 : 0 < S5120x1024.numel
  transposes_S100000x1024_S1024x100000_1_0 : S100000x1024.Transposes [1, 0] S1024x100000
  dot_S64x5120_S64x1024_S5120x1024_0_0_1_1_n_n_wf : DotDims.WF S64x5120 S64x1024 S5120x1024 [0] [0] [1] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S64x1024.size a ≤ S64x1024.size a
  hwx0_0 : ∀ i : grid0.Coords, EltTy.bits .f32 = 32 ∨ (Rect.block (s := S64x1024) S64x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S64x5120.size a < S64x100000.size a
  hwx0_1 : ∀ i : grid0.Coords, EltTy.bits .f32 = 32 ∨ (Rect.unit (s := S64x100000) (fun a => cc0_transform_1 i a * S64x5120.size a) (fun a => (Pipeline.Clip.of (cc0_transform_1 i a) (S64x5120.size a) (S64x100000.size a)).extent (S64x5120.size a)) fun a => Pipeline.Clip.inb (Pipeline.Clip.ok_of (hstart0_1 i a))).WholeWords (EltTy.packing .f32)
  hwxs0_1 : ∀ i : grid0.Coords, EltTy.bits .f32 = 32 ∨ (Rect.unit (s := S64x5120) (fun _ => 0) (fun a => (Pipeline.Clip.of (cc0_transform_1 i a) (S64x5120.size a) (S64x100000.size a)).extent (S64x5120.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S5120x1024.size a < S100000x1024.size a
  hwx0_2 : ∀ i : grid0.Coords, EltTy.bits .f32 = 32 ∨ (Rect.unit (s := S100000x1024) (fun a => cc0_transform_2 i a * S5120x1024.size a) (fun a => (Pipeline.Clip.of (cc0_transform_2 i a) (S5120x1024.size a) (S100000x1024.size a)).extent (S5120x1024.size a)) fun a => Pipeline.Clip.inb (Pipeline.Clip.ok_of (hstart0_2 i a))).WholeWords (EltTy.packing .f32)
  hwxs0_2 : ∀ i : grid0.Coords, EltTy.bits .f32 = 32 ∨ (Rect.unit (s := S5120x1024) (fun _ => 0) (fun a => (Pipeline.Clip.of (cc0_transform_2 i a) (S5120x1024.size a) (S100000x1024.size a)).extent (S5120x1024.size a)) fun a => (Nat.zero_add _).trans_le (Pipeline.Clip.extent_le (Pipeline.Clip.ok_of (hstart0_2 i a)))).WholeWords (EltTy.packing .f32)

variable [Facts₀]

def dot_S64x5120_S64x1024_S5120x1024_0_0_1_1_n_n : DotDims S64x5120 S64x1024 S5120x1024 where
  lhsContracting := [0]
  rhsContracting := [0]
  lhsNonContracting := [1]
  rhsNonContracting := [1]
  lhsBatch := []
  rhsBatch := []
  wf := dot_S64x5120_S64x1024_S5120x1024_0_0_1_1_n_n_wf

abbrev win0_0 : Pipeline.Window sig grid0 :=
  Pipeline.Window.ofSpec (Memref.whole main_v0) S64x1024.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpecClip (Memref.whole main_v1) S64x5120.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpecClip (Memref.whole main_v2) S5120x1024.size cc0_transform_2 reads0_2 true false 2 stage0_2 sem0_2
    hrank0 hreads0_2 hstart0_2 nbuf0_2 (Memref.isWhole_whole _) hwx0_2 hwxs0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S1024x64 : Shape := ⟨2, ![1024, 64]⟩
abbrev S100000x64 : Shape := ⟨2, ![100000, 64]⟩
abbrev S64x100000 : Shape := ⟨2, ![64, 100000]⟩
abbrev S1024x100000 : Shape := ⟨2, ![1024, 100000]⟩

abbrev nBuf : Space → Nat
  | .hbm => 4
  | .vmem => 0
  | .smem => 0
  | _ => 0

abbrev bufTy : (tb : Table) → Fin (tcTables nBuf tb) → BufTy
  | .hbm, ⟨0, _⟩ => ⟨S1024x64, .f32⟩
  | .hbm, ⟨1, _⟩ => ⟨S100000x64, .f32⟩
  | .hbm, ⟨2, _⟩ => ⟨S64x100000, .f32⟩
  | .hbm, ⟨3, _⟩ => ⟨S1024x100000, .f32⟩
  | _, _ => ⟨S1024x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]

class Facts₀ : Prop where
  transposes_S100000x64_S64x100000_1_0 : S100000x64.Transposes [1, 0] S64x100000
  dot_S1024x64_S64x100000_S1024x100000_1_0_0_1_n_n_wf : DotDims.WF S1024x64 S64x100000 S1024x100000 [1] [0] [0] [1] [] []

variable [Facts₀]

def dot_S1024x64_S64x100000_S1024x100000_1_0_0_1_n_n : DotDims S1024x64 S64x100000 S1024x100000 where
  lhsContracting := [1]
  rhsContracting := [0]
  lhsNonContracting := [0]
  rhsNonContracting := [1]
  lhsBatch := []
  rhsBatch := []
  wf := dot_S1024x64_S64x100000_S1024x100000_1_0_0_1_n_n_wf

class Facts : Prop extends Facts₀ where

variable [Facts]
-- ==== Proof.BitsBody.lean ====
/-
  The body of the word-level kernel, run once. It reads the whole staging buffer of each operand, forms their
  product on the matrix unit over a zero accumulator, and writes the product over the whole of the result's staging
  buffer (a read of that buffer in between is never used). The statement holds whatever the three buffers hold and at
  every float instance: the two operands' buffers come back unchanged and the result's buffer holds the product.
-/
import proofs.«107859_g32152125178478_cont_8to1_b_1599_33_alg».proof.Proof.Gen.Kernel.Frame
import proofs.«107859_g32152125178478_cont_8to1_b_1599_33_alg».proof.Proof.Gen.Kernel.Skeleton
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The offsets of every access of the body: the origin. -/
theorem origin2 : (![0, 0] : Fin 2 → Nat) = fun _ => 0 := funext fun a => by fin_cases a <;> rfl

/-- One run of the body on whole staging buffers: with the first operand's buffer holding `x0`, the second's
    `x1` and the result's anything, it ends with the two operands' buffers as they were and the result's
    holding the product of `x1` transposed with `x0`, contracted over the shared leading axis. -/
theorem sound_kernel (c : Dev nD) (E : Set ℕ) (i : grid0.Coords)
    (arg1 : Memref sig .tc .vmem S64x1024 .f32) (harg1 : arg1.IsWhole)
    (arg2 : Memref sig .tc .vmem S64x5120 .f32) (harg2 : arg2.IsWhole)
    (arg3 : Memref sig .tc .vmem S5120x1024 .f32) (harg3 : arg3.IsWhole)
    (x0 : Vec F S64x1024 .f32) (x1 : Vec F S64x5120 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (k0_pay1 x1 x0)) -∗ K ⟨⟩))
      ⊢ wp frame (wpE (defs₀ (F := F)) Variants.none c none) E (cc0__logits_kernel i arg1 harg1 arg2 harg2 arg3 harg3) K := by
  simp only [cc0__logits_kernel_eq_skeleton]; unfold cc0__logits_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  rw [View.read_writes_eq_canon _ _ _ (fun y => ⟨_, List.mem_singleton_self _,
      View.mem_set_unit_zero origin2 inb_S5120x1024_S5120x1024_0_0 y⟩),
    View.canon_unit_zero origin2]
  simp only [View.readAt_eq_ld, View.ld_unit_zero (S := S64x5120) origin2, View.ld_unit_zero (S := S64x1024) origin2]

end Cert.Kernel.Hand

end
-- ==== Proof.BitsFrame.lean ====
/-
  The frame of the word-level program: every weakly fair execution of @main terminates, nothing faults, and the two
  argument arrays end as they were launched.

  @main transposes its two arguments, runs one pipelined region over a grid of 20 points, and transposes the region's
  result. A window's BLOCK at a point is the rectangle of its array that the pipeline stages in a buffer there. The
  first operand (64 × 1024) is one block, staged once. The second operand (64 × 100000) is staged 5120 columns at a
  time and the result (100000 × 1024) is written back 5120 rows at a time; 20 · 5120 = 102400 > 100000, so the last
  block of each overhangs its array by 2400 columns (rows): the fetch there brings in the 2720 columns inside the array
  and the rest of the buffer holds words nothing names, and the write-back writes the 2720 rows inside the array only.

  The frame says nothing of the result, and at the word level this proof says nothing of it either. The result's block
  is a product on the matrix unit, whose words have no closed form here, and at the last point it is computed in part
  from the unnamed columns. So the result's window is FORGOTTEN: its staging buffer is handed to the body at any
  contents and taken back at any contents, and its array may end at any contents. What is left to state is what the
  body needs and keeps: the first operand's buffer holds its block before and after the body, and the second's holds
  its block on the columns inside the array, whatever lies past them, before and after. The region then leaves every
  buffer it does not stage as it found it (the two arguments among them: the region stages their transposes), the line
  after the region writes its own result only, and the lines before it write neither argument.
-/
import proofs.«107859_g32152125178478_cont_8to1_b_1599_33_alg».proof.Proof.Gen.Kernel.Frame
import proofs.«107859_g32152125178478_cont_8to1_b_1599_33_alg».proof.Proof.Gen.Kernel.Skeleton
import proofs.«107859_g32152125178478_cont_8to1_b_1599_33_alg».proof.Proof.Gen.Kernel.Points
import Idealize.ShloMosaic.Lib.Pipeline.Value
import proofs.«107859_g32152125178478_cont_8to1_b_1599_33_alg».proof.Proof.BitsBody

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- The windows the proof says nothing of: the result's alone. -/
def fgt : Fin cfg0.W → Bool :=
  fun | 0 => false | 1 => false | 2 => true | ⟨_ + 3, h⟩ => absurd h (Nat.not_lt.2 (Nat.le_add_left _ _))

/-- The second operand's staging buffer as the proof states it after the body at point `t`: the block's columns
    inside the array, and the zero word on the columns past the array's end (only the last point has any). Nothing
    is stated of those columns: the window is loose, and only the columns inside the array are compared. -/
def padded (c : Dev nD) (t : Fin cfg0.N) : S64x5120.Idx → Elt F .f32 :=
  win0_1.fill (grid0.coords t) (fun _ => Scalar.ofBits .f32 0#32) (iblk m c 1 t)

/-- The proof data of the one pipeline on core `c`: the arrays as the region finds them; after the body at point
    `t` the first operand's buffer at its block, the second's at its block padded, the result's at contents the
    proof does not name; the invariant the scoped rest and the generator register, untouched; nothing owed; full
    shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => padded m c t
    | ⟨2, h⟩ => Dat.unnamed (cfg := cfg0) ⟨2, h⟩ t
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

/-- What the body leaves in the two operands' buffers. -/
theorem after0_0 (c : Dev nD) (t : Fin cfg0.N) : (dats m 0 c).after 0 t = iblk m c 0 t := by dsimp only [dats]
theorem after0_1 (c : Dev nD) (t : Fin cfg0.N) : (dats m 0 c).after 1 t = padded m c t := by dsimp only [dats]

/-! ## What the body finds -/

/-- The first operand's buffer holds its one block at every point: fetched at the first, kept by the body since. -/
theorem before0_0 (c : Dev nD) (t : Fin cfg0.N) (d) : (dats m 0 c).before 0 t d = iblk m c 0 t :=
  before0_0_of m (dats m 0 c) (A_eq m c 0) (after0_0 m c) t d

/-- The second operand's buffer is fetched at every point: it holds the block's columns inside the array, and on
    the columns past the array's end whatever the fetch left there. -/
theorem before0_1 (c : Dev nD) (t : Fin cfg0.N) (d) :
    (dats m 0 c).before 1 t d = win0_1.fill (grid0.coords t) d (iblk m c 1 t) := by
  rw [Dat.before_fetched _ 1 t (fetch0_1 t)]
  unfold Dat.fetched Dat.blockOf iblk
  rw [A_eq]

/-! ## The body obligation, the result's window forgotten -/

/-- At every point: the first operand's buffer arrives holding its block and the second's its block with any words
    `d1` past the array's end; the result's holds anything. The body's triple, at the point's staging buffers,
    returns the two operands' buffers as they were — for the second, the same `d1` witnesses that it still holds
    its block on the columns inside the array, which is all a loose window's obligation asks — and the result's
    buffer at some contents, which is all a forgotten window's asks. The invariant and what the core owes pass
    through unread. -/
theorem body_obligation (c : Dev nD) :
    BodyObligationLoose (dats (F := F) m 0 c) (defs₀ (F := F)) Variants.none () Set.univ fgt := fun t => by
  rw [bigSep_W0, bigSep_W0]
  -- no point is idle; window 0 is exact, window 1 loose, window 2 forgotten: the `match`es reduce
  simp only [fgt]
  -- the padded block, cut back to the columns inside the array, is the block
  have hcut : (win0 1).cut (grid0.coords t) (padded m c t) = iblk m c 1 t := win0_1.cut_fill _ _ _
  rw [show (dats m 0 c).Φ t.succ = (dats m 0 c).Φ t.castSucc from rfl,
    show (dats m 0 c).owesAt () t.succ = (dats m 0 c).owesAt () t.castSucc from rfl,
    after0_0, after0_1, hcut]
  iintro ⟨HΦ, Ho, ⟨%d0, H0⟩, ⟨%d1, H1⟩, ⟨%X, H2⟩⟩
  rw [before0_0 m c t d0, before0_1 m c t d1]
  iapply (sound_kernel (F := F) c Set.univ (grid0.coords t)
    (win0_0.stage (cfg0.slots t 0)) (hstage0_0 ((cfg0.slots t 0).cast nbuf0_0))
    (win0_1.stage (cfg0.slots t 1)) (hstage0_1 ((cfg0.slots t 1).cast nbuf0_1))
    (win0_2.stage (cfg0.slots t 2)) (hstage0_2 ((cfg0.slots t 2).cast nbuf0_2))
    (iblk m c 0 t) (win0_1.fill (grid0.coords t) d1 (iblk m c 1 t)) _)
  isplitl [H0]; · iexact H0
  isplitl [H1]; · iexact H1
  isplitl [H2]; · iexists X; iexact H2
  iintro ⟨H0, H1, H2⟩
  isplitl [HΦ]; · iexact HΦ
  isplitl [Ho]; · iexact Ho
  isplitl [H0]; · iexact H0
  isplitl [H1]; · iexists d1; iexact H1
  iexists _; iexact H2

/-! ## The run and the frame -/

/-- The one line after the region writes its own result buffer only. -/
theorem sfx_writes : ∀ ops ∈ ([hostOps1] : List (List (HloOp τ sig (Elt F)))), ∀ op ∈ ops,
    ∀ b : Ref sig .tc, Proc.devRef .tc b ∈ op.writes → b ∈ ({main_v3} : Finset (Ref sig .tc)) := by
  intro ops hops op hop
  simp only [List.mem_cons, List.mem_nil_iff, or_false] at hops
  rcases hops with rfl
  simp only [hostOps1, List.mem_cons, List.mem_nil_iff, or_false] at hop
  rcases hop with rfl
  intro b hb
  simp only [StableHlo.unary_writes, Finset.mem_singleton] at hb ⊢
  exact Proc.devRef_injective (τ := τ) _ hb

-- the run theorem's implicit arguments are found by unifying its conclusion with this one, which takes unfolding
-- plain definitions in a metavariable's type
set_option backward.isDefEq.respectTransparency.types false in
/-- At the compiled mesh, for any words, from any memory with zero counters: every weakly fair execution of @main
    on the TensorCores terminates, and every final state has each array of the pipeline at some contents it may hold
    after every write-back (an input at its entry contents; nothing said of the forgotten result) and every other
    unscoped buffer but the last line's own result at what it held when the region was entered. -/
theorem run_main : θ_run defs (onTc (τ := τ) (main (F := F))) (s₀ m ρ)
    (Pipeline.RDat.FramePostR cfg0 (fun c => (dats m 0 c).toRForget fgt) {main_v3}
      (fun c b => V0 m c (Proc.devRef .tc b))) :=
  Pipeline.RDat.θ_run_frame_around_T cfgs (0 : Fin 1) launch0 defs₀ Variants.none
    (fun c => (dats m 0 c).toRForget fgt) {main_v3} m ρ main
    (hbody := fun c => (body_obligation m c).toRForget)
    (hshare := fun c => ((dats m 0 c).toRForget fgt).share_full fun _ => rfl)
    (howed := fun _ _ => rfl) (V₀ := V0 m) (opss := [hostOps1]) (hsub := sfx_sub) (hfresh := sfx_fresh)
    (hkeep := sfx_keeps) (hT := sfx_writes) (hmain := hmain m Variants.none) (hA := A_eq m) (hΦ := fun _ _ => rfl)

/-- THE FRAME, at any float instance: the two argument arrays are no array of the pipeline and not the last line's
    result, so each ends at what it held when the region was entered, which no line before the region wrote: its
    launch contents. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_arg0 (Finset.mem_sdiff.mpr ⟨Pipeline.mem_restRefs_of main_arg0 (by decide) (by decide),
        by decide⟩)).trans (V_main_arg0 m c),
      ((h c).2 main_arg1 (Finset.mem_sdiff.mpr ⟨Pipeline.mem_restRefs_of main_arg1 (by decide) (by decide),
        by decide⟩)).trans (V_main_arg1 m c)⟩) (run_main m ρ)

end Cert.Kernel.Hand

end
-- ==== Proof.IdealBody.lean ====
/-
  The kernel body, once: two whole loads (the staged block of each operand), one product on the matrix unit into a
  zero accumulator, one whole store of the product into the result's staging buffer. Stated for any contents of the
  three buffers and at any float instance: the run never needs to know what the buffers hold.
-/
import proofs.«107859_g32152125178478_cont_8to1_b_1599_33_alg».proof.Proof.Gen.KernelIdeal.Frame
import proofs.«107859_g32152125178478_cont_8to1_b_1599_33_alg».proof.Proof.Gen.KernelIdeal.Skeleton
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The offsets of every access of the body: the origin. -/
theorem origin2 : (![0, 0] : Fin 2 → Nat) = fun _ => 0 := funext fun a => by fin_cases a <;> rfl

/-- One run of the body on whole staging buffers: with the first operand's buffer holding `x0`, the second's
    `x1` and the result's anything, it ends with the two operands' buffers as they were and the result's
    holding the product of `x1` transposed with `x0`, contracted over the shared leading axis. -/
theorem sound_kernel (c : Dev nD) (E : Set ℕ) (i : grid0.Coords)
    (arg1 : Memref sig .tc .vmem S64x1024 .f32) (harg1 : arg1.IsWhole)
    (arg2 : Memref sig .tc .vmem S64x5120 .f32) (harg2 : arg2.IsWhole)
    (arg3 : Memref sig .tc .vmem S5120x1024 .f32) (harg3 : arg3.IsWhole)
    (x0 : Vec F S64x1024 .f32) (x1 : Vec F S64x5120 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (k0_pay1 x1 x0)) -∗ K ⟨⟩))
      ⊢ wp frame (wpE (defs₀ (F := F)) Variants.none c none) E (cc0__logits_kernel i arg1 harg1 arg2 harg2 arg3 harg3) K := by
  simp only [cc0__logits_kernel_eq_skeleton]; unfold cc0__logits_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  rw [View.read_writes_eq_canon _ _ _ (fun y => ⟨_, List.mem_singleton_self _,
      View.mem_set_unit_zero origin2 inb_S5120x1024_S5120x1024_0_0 y⟩),
    View.canon_unit_zero origin2]
  simp only [View.readAt_eq_ld, View.ld_unit_zero (S := S64x5120) origin2, View.ld_unit_zero (S := S64x1024) origin2]

end Cert.KernelIdeal.Hand

end
-- ==== Proof.IdealData.lean ====
/-
  The proof data of the idealized kernel's one pipeline. The grid has 20 points; point t stages columns
  5120·t ‥ 5120·t + 5119 of the second operand (a 64 × 100000 matrix) and writes rows 5120·t ‥ of the result
  (100000 × 1024) back. 20 · 5120 = 102400 > 100000: the last block overhangs the array by 2400 columns (rows), so
  its fetch brings in only the 2720 columns inside the array and leaves the rest of the buffer at contents nothing
  names, and its write-back writes only the 2720 rows inside the array. Row r of the body's product depends on column
  r of the second operand's buffer alone, so the rows written back never see the unnamed columns.
-/
import proofs.«107859_g32152125178478_cont_8to1_b_1599_33_alg».proof.Proof.Gen.KernelIdeal.Frame
import proofs.«107859_g32152125178478_cont_8to1_b_1599_33_alg».proof.Proof.Gen.KernelIdeal.Skeleton
import Idealize.ShloMosaic.Lib.Pipeline.Value
import proofs.«107859_g32152125178478_cont_8to1_b_1599_33_alg».proof.Proof.Gen.KernelIdeal.Points
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the staging buffers hold after the body -/

/-- The second operand's staging buffer as the proof states it after the body at point `t`: the block's columns
    that lie inside the array, and the zero word on the columns past the array's end (which only the last point
    has). Nothing is ever read off those columns. -/
def padded (c : Dev nD) (t : Fin cfg0.N) : S64x5120.Idx → Elt F .f32 :=
  win0_1.fill (grid0.coords t) (fun _ => Scalar.ofBits .f32 0#32) (iblk m c 1 t)

/-- The proof data of the one pipeline on core `c`: the arrays as the region finds them; after the body at point
    `t` the first operand's buffer at its block, the second's at its block padded, the result's at the body's
    product of the two. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => padded m c t
    | ⟨2, _⟩ => k0_pay1 (padded m c t) (iblk m c 0 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = padded m c t := by dsimp only [dats]
theorem after0_2 (c : Dev nD) (t : Fin cfg0.N) :
    (dats m 0 c).after 2 t = k0_pay1 (padded m c t) (iblk m c 0 t) := by dsimp only [dats]

/-! ## What the body finds -/

/-- The first operand's buffer holds its one block at every point. -/
theorem before0_0 (c : Dev nD) (t : Fin cfg0.N) (d) : (dats m 0 c).before 0 t d = iblk m c 0 t :=
  before0_0_of m (dats m 0 c) (A_eq m c 0) (after0_0 m c) t d

/-- The second operand's buffer is fetched at every point: it holds the block's columns inside the array, and on
    the columns past the array's end whatever the fetch left there. -/
theorem before0_1 (c : Dev nD) (t : Fin cfg0.N) (d) :
    (dats m 0 c).before 1 t d = win0_1.fill (grid0.coords t) d (iblk m c 1 t) := by
  rw [Dat.before_fetched _ 1 t (fetch0_1 t)]
  unfold Dat.fetched Dat.blockOf iblk
  rw [A_eq]

/-- The result's buffer is written back at every point, so the body finds it at contents nothing names. -/
theorem before0_2 (c : Dev nD) (t : Fin cfg0.N) (d) : (dats m 0 c).before 2 t d = d := by
  refine Dat.before_out_reset _ 2 rfl t ?_ d
  by_cases h0 : t.val = 0
  · exact .inl h0
  · exact .inr ⟨h0, flush0_2 _⟩

end Cert.KernelIdeal.Hand

end
-- ==== Proof.LibMatmulCols.lean ====
/-
  A rank-2 matrix product whose contraction runs along the FIRST axis of both operands, read at an entry.

  `matmul_cols_cols`: a matrix unit's product of a [K, A] by a [K, B] matrix into a zero accumulator, contracting
  axis 0 of the left operand with axis 0 of the right one, read at (p, q), is ∑ k, L(k,p) · R(k,q): COLUMN p of the
  left operand times column q of the right one (the product of the left operand's transpose with the right operand).
  Stated for any dimension record whose four index facts (the left index takes the contraction position and the output
  row, the right index the contraction position and the output column) are supplied.
-/
import Idealize.ShloMosaic.Lib.ValueIdx
import Idealize.ShloMosaic.Lib.Pipeline.Value
import Idealize.ShloMosaic.PureOps.Ideal.Laws

noncomputable section

namespace Cert.MatmulCols

open Idealize.ShloMosaic Idealize.ShloMosaic.ValueIdx

/-- A matrix product into a zero accumulator that contracts the first axis of both operands, read at (p, q): the sum
    over the contracted axis of the left operand's column p times the right operand's column q. -/
theorem matmul_cols_cols {A K B : ℕ} {φ₁ φ₂ : FTy}
    (d : DotDims ⟨2, ![K, A]⟩ ⟨2, ![K, B]⟩ ⟨2, ![A, B]⟩) (hr : d.contr.rank = 1) (hs : d.contr.size ⟨0, by omega⟩ = K)
    (hl0 : ∀ (i : (⟨2, ![A, B]⟩ : Shape).Idx) (q : d.contr.Idx), (d.lhsIdx i q 0).val = (q ⟨0, by omega⟩).val)
    (hl1 : ∀ (i : (⟨2, ![A, B]⟩ : Shape).Idx) (q : d.contr.Idx), (d.lhsIdx i q 1).val = (i 0).val)
    (hr0 : ∀ (i : (⟨2, ![A, B]⟩ : Shape).Idx) (q : d.contr.Idx), (d.rhsIdx i q 0).val = (q ⟨0, by omega⟩).val)
    (hr1 : ∀ (i : (⟨2, ![A, B]⟩ : Shape).Idx) (q : d.contr.Idx), (d.rhsIdx i q 1).val = (i 1).val)
    (prec : Option ContractPrecision) (L : FVec Ideal ⟨2, ![K, A]⟩ φ₁) (R : FVec Ideal ⟨2, ![K, B]⟩ φ₂) (p : Fin A) (q : Fin B) :
    FloatOps.matmul d prec L R (constant ⟨2, ![A, B]⟩ .f32 0x00000000#32) (ix2 p q)
      = ∑ k : Fin K, L (ix2 k p) * R (ix2 k q) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 k p := funext fun a => Fin.ext (by
    match a with
    | ⟨0, _⟩ => exact (hl0 _ _).trans hk
    | ⟨1, _⟩ => exact hl1 _ _)
  have er : d.rhsIdx (ix2 p q) ((contrEquiv1 d K hr hs).symm k) = ix2 k q := funext fun a => Fin.ext (by
    match a with
    | ⟨0, _⟩ => exact (hr0 _ _).trans hk
    | ⟨1, _⟩ => exact hr1 _ _)
  rw [el, er]

end Cert.MatmulCols

end
-- ==== Proof.IdealPay.lean ====
/-
  The body's one payload at the exact instance, read at an entry: the product into a zero accumulator of the staged
  64 × 5120 block (transposed) with the staged 64 × 1024 block, contracting the shared leading axis of extent 64. Entry
  (p, q) is ∑ k, X1(k, p) · X0(k, q): it reads COLUMN p of the first buffer and column q of the second, nothing else.
-/
import proofs.«107859_g32152125178478_cont_8to1_b_1599_33_alg».proof.Proof.Gen.KernelIdeal.Skeleton
import proofs.«107859_g32152125178478_cont_8to1_b_1599_33_alg».proof.Proof.LibMatmulCols
import Idealize.ShloMosaic.Lib.Pipeline.Value
import Idealize.ShloMosaic.Lib.ValueIdx
import Idealize.ShloMosaic.PureOps.Ideal.Laws

noncomputable section

namespace Cert.KernelIdeal.Hand

open Cert.KernelIdeal Cert.KernelIdeal.Gen
open Idealize.ShloMosaic Idealize.ShloMosaic.ValueIdx

/-- The body's product at entry (p, q). -/
theorem pay_apply (X1 : Vec Ideal S64x5120 .f32) (X0 : Vec Ideal S64x1024 .f32) (p : Fin 5120) (q : Fin 1024) :
    k0_pay1 (F := Ideal) X1 X0 (ix2 p q) = ∑ k : Fin 64, X1 (ix2 k p) * X0 (ix2 k q) := by
  unfold k0_pay1
  simp only [shapeCast_self, matmul]
  exact Cert.MatmulCols.matmul_cols_cols dot_S64x5120_S64x1024_S5120x1024_0_0_1_1_n_n rfl rfl
    (fun i r => dot_S64x5120_S64x1024_S5120x1024_0_0_1_1_n_n.lhsIdx_val_of_single rfl i r)
    (fun i r => by
      unfold DotDims.lhsIdx
      rw [dif_neg (show ¬(1 : Fin S64x5120.rank) ∈ dot_S64x5120_S64x1024_S5120x1024_0_0_1_1_n_n.lhsBatch by decide),
        dif_pos (show (1 : Fin S64x5120.rank) ∈ dot_S64x5120_S64x1024_S5120x1024_0_0_1_1_n_n.lhsNonContracting by decide)]
      rfl)
    (fun i r => dot_S64x5120_S64x1024_S5120x1024_0_0_1_1_n_n.rhsIdx_val_of_single rfl i r)
    (fun i r => by
      unfold DotDims.rhsIdx
      rw [dif_neg (show ¬(1 : Fin S64x1024.rank) ∈ dot_S64x5120_S64x1024_S5120x1024_0_0_1_1_n_n.rhsBatch by decide),
        dif_pos (show (1 : Fin S64x1024.rank) ∈ dot_S64x5120_S64x1024_S5120x1024_0_0_1_1_n_n.rhsNonContracting by decide)]
      rfl)
    none X1 X0 p q

end Cert.KernelIdeal.Hand

end
-- ==== Proof.IdealRun.lean ====
/-
  The run of the idealized kernel. At each of the 20 grid points the body multiplies the staged 64 × 5120 block of the
  transposed prototypes (transposed) by the staged 64 × 1024 block of the transposed features. Row p of that product is
  ∑ k, (second buffer)(k, p) · (first buffer)(k, ·): it reads column p of the second buffer only. At the last point
  the fetch fills only the 2720 columns inside the array; the other 2400 columns hold words nothing names, and so do
  the corresponding 2400 rows of the product — but the write-back moves only the first 2720 rows, which are computed
  from named columns. This is what lets the proof data state the result's buffer exactly on the rows that matter.
-/
import proofs.«107859_g32152125178478_cont_8to1_b_1599_33_alg».proof.Proof.Gen.KernelIdeal.Frame
import proofs.«107859_g32152125178478_cont_8to1_b_1599_33_alg».proof.Proof.Gen.KernelIdeal.Skeleton
import Idealize.ShloMosaic.Lib.Pipeline.Value
import proofs.«107859_g32152125178478_cont_8to1_b_1599_33_alg».proof.Proof.IdealBody
import proofs.«107859_g32152125178478_cont_8to1_b_1599_33_alg».proof.Proof.IdealData
import proofs.«107859_g32152125178478_cont_8to1_b_1599_33_alg».proof.Proof.IdealPay
import Idealize.ShloMosaic.Lib.ValueIdx
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

open Idealize.ShloMosaic.ValueIdx

/-! ## The rows written back never see the columns nothing names -/

/-- Entry (p, q) of the body's product reads column `p` of the second operand's buffer only. -/
theorem pay_congr_col (X1 X1' : Vec Ideal S64x5120 .f32) (X0 : Vec Ideal S64x1024 .f32) (p : Fin 5120) (q : Fin 1024)
    (h : ∀ k : Fin 64, X1 (ix2 k p) = X1' (ix2 k p)) :
    k0_pay1 (F := Ideal) X1 X0 (ix2 p q) = k0_pay1 (F := Ideal) X1' X0 (ix2 p q) := by
  rw [pay_apply, pay_apply]
  exact Finset.sum_congr rfl fun k _ => by rw [h k]

/-- A column of the second operand's buffer that the fetch fills holds the block, whatever the rest held: the block's
    64 rows are all inside the array, and its columns inside the array are the result block's rows inside the array
    (the point's index sits on the clipped axis of both). -/
theorem fill_col (i : grid0.Coords) (d d' : S64x5120.Idx → EReal) (b : (win0_1.xblock i).Idx → EReal)
    (k : Fin 64) (p : Fin 5120) (hp : p.val < win0_2.xsize i 0) :
    win0_1.fill i d b (ix2 k p) = win0_1.fill i d' b (ix2 k p) := by
  have hm : win0_1.moved i (ix2 k p) = true := (win0_1.moved_iff i _).mpr fun a => by
    match a with
    | ⟨0, _⟩ => exact k.isLt
    | ⟨1, _⟩ => exact hp
  unfold Window.fill
  rw [dif_pos hm, dif_pos hm]

/-- So the rows of the product that the write-back moves are the same for every filling of the unnamed columns. -/
theorem cut_pay_fill (i : grid0.Coords) (d d' : S64x5120.Idx → EReal) (b : (win0_1.xblock i).Idx → EReal)
    (X0 : Vec Ideal S64x1024 .f32) :
    win0_2.cut i (k0_pay1 (F := Ideal) (win0_1.fill i d b) X0) = win0_2.cut i (k0_pay1 (F := Ideal) (win0_1.fill i d' b) X0) := by
  funext j
  have hx : win0_2.xinj i j = ix2 (⟨(j 0).val, Nat.lt_of_lt_of_le (j 0).isLt (win0_2.xsize_le i 0)⟩ : Fin 5120)
      (⟨(j 1).val, Nat.lt_of_lt_of_le (j 1).isLt (win0_2.xsize_le i 1)⟩ : Fin 1024) :=
    funext fun a => Fin.ext (by match a with | ⟨0, _⟩ => rfl | ⟨1, _⟩ => rfl)
  show k0_pay1 (F := Ideal) (win0_1.fill i d b) X0 (win0_2.xinj i j) = k0_pay1 (F := Ideal) (win0_1.fill i d' b) X0 (win0_2.xinj i j)
  rw [hx]
  exact pay_congr_col _ _ X0 _ _ fun k => fill_col i d d' b k _ (j 0).isLt

variable (m : (ℓ : Loc nD τ sig) → Buf (Elt Ideal) ℓ) (ρ : Dev nD → PrngReg)

/-! ## The body obligation -/

/-- At every point: the first operand's buffer arrives at its block, the second's at its block with anything on the
    columns past the array's end, the result's at anything; the body leaves the first two as they were and the
    result's at the product, whose rows inside the array are those the proof data states. -/
theorem body_obligation (c : Dev nD) :
    BodyObligationLoose (dats (F := Ideal) m 0 c) (defs₀ (F := Ideal)) Variants.none () Set.univ := fun t => by
  rw [bigSep_W0, bigSep_W0]
  simp only
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩⟩
  rw [before0_0 m c t d0, before0_1 m c t d1, before0_2 m c t d2]
  iapply (sound_kernel (F := Ideal) c Set.univ (grid0.coords t)
    (win0_0.stage (cfg0.slots t 0)) (hstage0_0 ((cfg0.slots t 0).cast nbuf0_0))
    (win0_1.stage (cfg0.slots t 1)) (hstage0_1 ((cfg0.slots t 1).cast nbuf0_1))
    (win0_2.stage (cfg0.slots t 2)) (hstage0_2 ((cfg0.slots t 2).cast nbuf0_2))
    (iblk m c 0 t) (win0_1.fill (grid0.coords t) d1 (iblk m c 1 t)) _)
  isplitl [H0]; · iexact H0
  isplitl [H1]; · iexact H1
  isplitl [H2]; · iexists d2; iexact H2
  iintro ⟨H0, H1, H2⟩
  isplitl [HΦ]; · iexact HΦ
  isplitl [Ho]; · iexact Ho
  isplitl [H0]
  · rw [after0_0]; iexact H0
  isplitl [H1]
  · iexists d1
    have e : win0_1.fill (grid0.coords t) d1 (win0_1.cut (grid0.coords t) ((dats m 0 c).after 1 t))
        = win0_1.fill (grid0.coords t) d1 (iblk m c 1 t) := by
      rw [after0_1]; unfold padded; rw [win0_1.cut_fill]
    change _ ⊢ owns (c : Thread nD τ) _ fullShare (win0_1.fill (grid0.coords t) d1 (win0_1.cut (grid0.coords t) ((dats m 0 c).after 1 t)))
    rw [e]
  · iexists k0_pay1 (F := Ideal) (win0_1.fill (grid0.coords t) d1 (iblk m c 1 t)) (iblk m c 0 t)
    have e : win0_2.fill (grid0.coords t) (k0_pay1 (F := Ideal) (win0_1.fill (grid0.coords t) d1 (iblk m c 1 t)) (iblk m c 0 t))
          (win0_2.cut (grid0.coords t) ((dats m 0 c).after 2 t))
        = k0_pay1 (F := Ideal) (win0_1.fill (grid0.coords t) d1 (iblk m c 1 t)) (iblk m c 0 t) := by
      rw [after0_2]; unfold padded
      exact win0_2.fill_congr_cut (grid0.coords t) (cut_pay_fill (grid0.coords t) d1 _ (iblk m c 1 t) (iblk m c 0 t))
    change _ ⊢ owns (c : Thread nD τ) _ fullShare (win0_2.fill (grid0.coords t) (k0_pay1 (F := Ideal) (win0_1.fill (grid0.coords t) d1 (iblk m c 1 t)) (iblk m c 0 t))
          (win0_2.cut (grid0.coords t) ((dats m 0 c).after 2 t)))
    rw [e]

/-! ## The run -/

set_option backward.isDefEq.respectTransparency.types false in
/-- From any memory with zero counters every weakly fair execution of @main terminates; the region's arrays end at what
    the proof data computes (the result array: each point's block, cut at the array's end, written in point order)
    and every other buffer as the host line after the region leaves it. -/
theorem run_main : θ_run defs (onTc (τ := τ) (main (F := Ideal))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => body_obligation m c) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

end Cert.KernelIdeal.Hand

end
-- ==== Proof.Spec.lean ====
/-
  The specification both programs are compared with: the similarity logits of 1024 feature rows against 100000
  prototype rows, all of width 64, over the extended reals. Entry (b, r) is the inner product of row b of `x` with
  row r of `proto`. The kernel computes the transpose of this matrix tile by tile (5120 prototype rows per tile);
  `logitsT` is that transposed matrix as a function of the two transposed operands.
-/
import Idealize.ShloMosaic.PureOps.Ideal
import Idealize.ShloMosaic.Lib.ValueIdx

noncomputable section

namespace Cert.Spec

open Idealize.ShloMosaic Idealize.ShloMosaic.ValueIdx

/-- Entry (b, r): ∑ k, x(b, k) · proto(r, k). -/
def logits (x : (⟨2, ![1024, 64]⟩ : Shape).Idx → EReal) (p : (⟨2, ![100000, 64]⟩ : Shape).Idx → EReal) :
    (⟨2, ![1024, 100000]⟩ : Shape).Idx → EReal :=
  fun i => ∑ k : Fin 64, x (ix2 (i 0 : Fin 1024) k) * p (ix2 (i 1 : Fin 100000) k)

/-- The transposed product from the transposed operands: entry (r, b) is ∑ k, pt(k, r) · xt(k, b). -/
def logitsT (xt : (⟨2, ![64, 1024]⟩ : Shape).Idx → EReal) (pt : (⟨2, ![64, 100000]⟩ : Shape).Idx → EReal) :
    (⟨2, ![100000, 1024]⟩ : Shape).Idx → EReal :=
  fun j => ∑ k : Fin 64, pt (ix2 k (j 0 : Fin 100000)) * xt (ix2 k (j 1 : Fin 1024))

end Cert.Spec

end
-- ==== Proof.IdealValue.lean ====
/-
  What the idealized kernel's result holds, as the specification's function of the two argument arrays, over the
  extended reals.

  The host first transposes both arguments: the region finds xᵀ (64 × 1024) and protoᵀ (64 × 100000). The region's grid
  has 20 points. Point t stages all of xᵀ and columns 5120·t ‥ 5120·t + 5119 of protoᵀ, and writes rows
  5120·t ‥ 5120·t + 5119 of the result (100000 × 1024) back. Since 20 · 5120 = 102400 > 100000, the last block
  overhangs the array: at t = 19 only 100000 − 5120·19 = 2720 columns of protoᵀ are brought in, the other 2400 columns
  of the staging buffer hold contents nothing names, and only the first 2720 rows of the product are written back.

  Row p of the body's product is ∑ k, B(k, p) · xᵀ(k, q) over the columns q, where B is the second operand's staging
  buffer: it reads column p of B and nothing else of it. A row that is written back has p below the number of rows the
  write-back moves, which is the number of columns the fetch moved; so column p of B is column 5120·t + p of protoᵀ, and
  the unnamed columns are never read by a row that reaches the array. Hence point t writes exactly its rows of the one
  matrix L(r, b) = ∑ k, protoᵀ(k, r) · xᵀ(k, b).

  The cut blocks cover the result: row r < 100000 lies in the block of point t = r / 5120, whose rows start at
  5120·t ≤ r and number min 5120 (100000 − 5120·t) > r − 5120·t; every block spans all 1024 columns. So the region ends
  with the result array at L, and the host's final transpose gives entry (b, r) = L(r, b) = ∑ k, x(b, k) · proto(r, k)
  by commuting each product: the specification's logits.
-/
import proofs.«107859_g32152125178478_cont_8to1_b_1599_33_alg».proof.Proof.IdealData
import proofs.«107859_g32152125178478_cont_8to1_b_1599_33_alg».proof.Proof.IdealPay
import proofs.«107859_g32152125178478_cont_8to1_b_1599_33_alg».proof.Proof.Spec
import Idealize.ShloMosaic.Lib.Pipeline.Value
import Idealize.ShloMosaic.Lib.ValueIdx
import Idealize.ShloMosaic.Lib.StableHlo.Run
import Idealize.ShloMosaic.PureOps.Ideal.Laws
set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat Cfg Window)

variable (m : (ℓ : Loc nD τ sig) → Buf (Elt Ideal) ℓ)

/-! ## The staged arrays as the region finds them -/

/-- The first staged array as the region finds it: the first argument transposed. -/
theorem V_main_v0_eq_transpose (c : Dev nD) :
    V m c main_v0 = transpose S64x1024 [1, 0] (m ((c : Thread nD τ).loc main_arg0)) transposes_S1024x64_S64x1024_1_0 := by
  show StableHlo.after hostOps0 (fun b => m (c, b)) (Proc.devRef .tc main_v0) = _
  after_results

/-- The second staged array as the region finds it: the second argument transposed. -/
theorem V_main_v1_eq_transpose (c : Dev nD) :
    V m c main_v1 = transpose S64x100000 [1, 0] (m ((c : Thread nD τ).loc main_arg1)) transposes_S100000x64_S64x100000_1_0 := by
  show StableHlo.after hostOps0 (fun b => m (c, b)) (Proc.devRef .tc main_v1) = _
  after_results

/-- Entry (k, b) of the first staged array is entry (b, k) of the first argument. -/
theorem V_main_v0_apply (c : Dev nD) (k : Fin 64) (b : Fin 1024) :
    V m c main_v0 (ix2 k b) = m ((c : Thread nD τ).loc main_arg0) (ix2 b k) := by
  rw [V_main_v0_eq_transpose]
  exact transpose_apply [1, 0] _ transposes_S1024x64_S64x1024_1_0 (ix2 k b) (ix2 b k) (fun a => match a with
    | ⟨0, _⟩ => rfl
    | ⟨1, _⟩ => rfl)

/-- Entry (k, r) of the second staged array is entry (r, k) of the second argument. -/
theorem V_main_v1_apply (c : Dev nD) (k : Fin 64) (r : Fin 100000) :
    V m c main_v1 (ix2 k r) = m ((c : Thread nD τ).loc main_arg1) (ix2 r k) := by
  rw [V_main_v1_eq_transpose]
  exact transpose_apply [1, 0] _ transposes_S100000x64_S64x100000_1_0 (ix2 k r) (ix2 r k) (fun a => match a with
    | ⟨0, _⟩ => rfl
    | ⟨1, _⟩ => rfl)

/-! ## The index maps and the cuts, decided over the grid -/

/-- At point t: the first operand's one block is block (0, 0); the second operand's is block (0, t); the result's is
    block (t, 0). The fetch of the second operand moves all 64 rows and as many columns as the write-back moves rows;
    the write-back moves all 1024 columns and the rows 5120·t ‥ that lie below 100000: 5120 of them, or at the last
    point 100000 − 5120·19 = 2720. -/
theorem blocks_at_point : ∀ t : Fin cfg0.N,
    win0_0.index t (0 : Fin 2) = 0 ∧ win0_0.index t (1 : Fin 2) = 0
    ∧ win0_1.index t (0 : Fin 2) = 0 ∧ win0_1.index t (1 : Fin 2) = t.val
    ∧ win0_2.index t (0 : Fin 2) = t.val ∧ win0_2.index t (1 : Fin 2) = 0
    ∧ win0_1.xsize (grid0.coords t) (0 : Fin 2) = 64
    ∧ win0_1.xsize (grid0.coords t) (1 : Fin 2) = win0_2.xsize (grid0.coords t) (0 : Fin 2)
    ∧ win0_2.xsize (grid0.coords t) (1 : Fin 2) = 1024
    ∧ win0_2.xsize (grid0.coords t) (0 : Fin 2) = min 5120 (100000 - 5120 * t.val) :=
  (by decide +kernel : ∀ t : Fin grid0.N, _)

/-! ## What a staging buffer and a block hold at an entry -/

/-- A coordinate of an index of the part a transfer moves is below the number of coordinates it moves on that axis. -/
theorem coord_lt_xsize {G : Pipeline.Grid} (w : Window sig G) (i : G.Coords) (j : (w.xblock i).Idx)
    (a : Fin w.shape.rank) : (j a).val < w.xsize i a := (j a).isLt

/-- A filled buffer at an index the transfer moves holds the block's element there. -/
theorem fill_apply_of_lt {G : Pipeline.Grid} (w : Window sig G) {α : Type} (i : G.Coords) (d : w.block.Idx → α)
    (g : (w.xblock i).Idx → α) (j : w.block.Idx) (h : ∀ a, (j a).val < w.xsize i a) :
    w.fill i d g j = g fun a => ⟨(j a).val, h a⟩ := by
  unfold Window.fill
  rw [dif_pos ((w.moved_iff i j).mpr h)]

/-- The first operand's block is the whole staged array at every point. -/
theorem first_block_apply (c : Dev nD) (t : Fin cfg0.N) (k : Fin 64) (q : Fin 1024) :
    iblk m c 0 t (ix2 k q) = V m c main_v0 (ix2 k q) := by
  obtain ⟨e00, e01, -⟩ := blocks_at_point t
  unfold iblk
  show V m c main_v0 (((cfg0.win 0).blk t).view.emb (ix2 k q)) = V m c main_v0 (ix2 k q)
  refine congrArg (V m c main_v0) (funext fun a => Fin.ext ?_)
  match a with
  | ⟨0, _⟩ => show win0_0.index t (0 : Fin 2) * 64 + 1 * k.val = k.val; omega
  | ⟨1, _⟩ => show win0_0.index t (1 : Fin 2) * 1024 + 1 * q.val = q.val; omega

/-- Column y of the second operand's block at point t is column 5120·t + y of the staged array. -/
theorem second_block_apply (c : Dev nD) (t : Fin cfg0.N) (y : ((cfg0.win 1).xblock (grid0.coords t)).Idx) (k : Fin 64)
    (r : Fin 100000) (h0 : (y 0).val = k.val) (h1 : 5120 * t.val + (y 1).val = r.val) :
    iblk m c 1 t y = V m c main_v1 (ix2 k r) := by
  obtain ⟨-, -, e10, e11, -⟩ := blocks_at_point t
  unfold iblk
  show V m c main_v1 (((cfg0.win 1).blk t).view.emb y) = V m c main_v1 (ix2 k r)
  refine congrArg (V m c main_v1) (funext fun a => Fin.ext ?_)
  match a with
  | ⟨0, _⟩ => show win0_1.index t (0 : Fin 2) * 64 + 1 * (y 0).val = k.val; omega
  | ⟨1, _⟩ => show win0_1.index t (1 : Fin 2) * 5120 + 1 * (y 1).val = r.val; omega

/-! ## What each point writes back -/

/-- Entry (y₀, y₁) of what point t writes back — the part of the body's product inside the array — is entry
    (5120·t + y₀, y₁) of the transposed product of the two staged arrays: row y₀ of the body's product reads column y₀
    of the second operand's buffer alone, y₀ is below the number of rows the write-back moves, which is the number of
    columns the fetch moved, so that column is column 5120·t + y₀ of the staged array. -/
theorem written_back_entry (c : Dev nD) (t : Fin cfg0.N) (j : (win0_2.xblock (grid0.coords t)).Idx)
    (i : S100000x1024.Idx) (hi0 : (i 0).val = 5120 * t.val + (j 0).val) (hi1 : (i 1).val = (j 1).val) :
    k0_pay1 (F := Ideal) (padded m c t) (iblk m c 0 t) (win0_2.xinj (grid0.coords t) j)
      = Cert.Spec.logitsT (V m c main_v0) (V m c main_v1) i := by
  obtain ⟨-, -, -, -, -, -, x10, x11, x21, x20⟩ := blocks_at_point t
  have hj0 : (j 0).val < win0_2.xsize (grid0.coords t) (0 : Fin 2) := coord_lt_xsize win0_2 (grid0.coords t) j (0 : Fin 2)
  have hj1 : (j 1).val < win0_2.xsize (grid0.coords t) (1 : Fin 2) := coord_lt_xsize win0_2 (grid0.coords t) j (1 : Fin 2)
  have hp : (j 0).val < 5120 := by omega
  have hq : (j 1).val < 1024 := by omega
  have hx : win0_2.xinj (grid0.coords t) j = ix2 (⟨(j 0).val, hp⟩ : Fin 5120) (⟨(j 1).val, hq⟩ : Fin 1024) :=
    funext fun a => Fin.ext (by match a with | ⟨0, _⟩ => rfl | ⟨1, _⟩ => rfl)
  rw [hx]
  refine (pay_apply (padded m c t) (iblk m c 0 t) _ _).trans ?_
  unfold Cert.Spec.logitsT
  refine Finset.sum_congr rfl fun k _ => ?_
  refine congrArg₂ (fun a b : EReal => a * b) ?_ ?_
  · unfold padded
    refine (fill_apply_of_lt win0_1 (grid0.coords t) _ (iblk m c 1 t) (ix2 k (⟨(j 0).val, hp⟩ : Fin 5120)) (fun a => by
      match a with
      | ⟨0, _⟩ => show k.val < win0_1.xsize (grid0.coords t) (0 : Fin 2); have := k.isLt; omega
      | ⟨1, _⟩ => show (j 0).val < win0_1.xsize (grid0.coords t) (1 : Fin 2); omega)).trans ?_
    exact second_block_apply m c t _ k (i 0) rfl hi0.symm
  · refine (first_block_apply m c t k _).trans (congrArg (V m c main_v0) ?_)
    exact funext fun a => Fin.ext (by match a with | ⟨0, _⟩ => rfl | ⟨1, _⟩ => exact hi1.symm)

/-- What point t writes back is its (cut) block of the transposed product of the two staged arrays. -/
theorem written_back_eq (c : Dev nD) (t : Fin cfg0.N) :
    (dats (F := Ideal) m 0 c).flushed 2 t
      = ((cfg0.win 2).blk t).view.read (Elt Ideal) (Cert.Spec.logitsT (V m c main_v0) (V m c main_v1)) := by
  obtain ⟨-, -, -, -, e20, e21, -⟩ := blocks_at_point t
  show (cfg0.win 2).cut (grid0.coords t) ((dats (F := Ideal) m 0 c).after 2 t) = _
  rw [after0_2]
  funext j
  show k0_pay1 (F := Ideal) (padded m c t) (iblk m c 0 t) (win0_2.xinj (grid0.coords t) j)
    = Cert.Spec.logitsT (V m c main_v0) (V m c main_v1) (((cfg0.win 2).blk t).view.emb j)
  refine written_back_entry m c t j _ ?_ ?_
  · show win0_2.index t (0 : Fin 2) * 5120 + 1 * (j 0).val = 5120 * t.val + (j 0).val; omega
  · show win0_2.index t (1 : Fin 2) * 1024 + 1 * (j 1).val = (j 1).val; omega

/-! ## The cut blocks cover the result array -/

/-- An index of the result array is in point t's cut block iff on each axis its coordinate is among those the
    write-back moves: from the block's start, as many as lie inside the array. -/
theorem mem_result_block_iff (t : Fin cfg0.N) (i : S100000x1024.Idx) :
    i ∈ ((cfg0.win 2).blk t).view.set ↔ ∀ a : Fin 2, win0_2.index t a * S5120x1024.size a ≤ (i a).val
      ∧ (i a).val < win0_2.index t a * S5120x1024.size a + win0_2.xsize (grid0.coords t) a := by
  show i ∈ ((View.whole main_v2).slice (win0_2.rect t)).set ↔ _
  rw [View.set_slice_whole, Rect.mem_set_unit]
  exact Iff.rfl

/-- Row r of the result array is written by point r / 5120: that point's rows start at 5120·(r / 5120) ≤ r, and it
    moves 5120 of them, or, when fewer than 5120 are left below 100000, all that are left; r < 100000 is among them
    either way. Every point writes all 1024 columns. -/
theorem result_rows_covered (i : S100000x1024.Idx) :
    ∃ t : Fin cfg0.N, (cfg0.win 2).flush t = true ∧ i ∈ ((cfg0.win 2).blk t).view.set := by
  have hN : cfg0.N = 20 := N_0
  have hi0 : (i 0).val < 100000 := (i 0).isLt
  have hi1 : (i 1).val < 1024 := (i 1).isLt
  obtain ⟨t, ht⟩ : ∃ t : Fin cfg0.N, t.val = (i 0).val / 5120 := ⟨⟨(i 0).val / 5120, by rw [hN]; omega⟩, rfl⟩
  obtain ⟨-, -, -, -, e20, e21, -, -, x21, x20⟩ := blocks_at_point t
  refine ⟨t, flush0_2 t, ?_⟩
  rw [mem_result_block_iff]
  intro a
  match a with
  | ⟨0, _⟩ =>
    show win0_2.index t (0 : Fin 2) * 5120 ≤ (i 0).val
      ∧ (i 0).val < win0_2.index t (0 : Fin 2) * 5120 + win0_2.xsize (grid0.coords t) (0 : Fin 2)
    omega
  | ⟨1, _⟩ =>
    show win0_2.index t (1 : Fin 2) * 1024 ≤ (i 1).val
      ∧ (i 1).val < win0_2.index t (1 : Fin 2) * 1024 + win0_2.xsize (grid0.coords t) (1 : Fin 2)
    omega

/-! ## The region's result -/

/-- After the last point the result array holds the transposed product of the two staged arrays: every point writes
    its block of that one function, and the blocks cover the array. -/
theorem region_result (c : Dev nD) :
    (dats (F := Ideal) m 0 c).arrAt 2 cfg0.N = Cert.Spec.logitsT (V m c main_v0) (V m c main_v1) :=
  (dats (F := Ideal) m 0 c).arrAt_eq_of_cover 2 (Cert.Spec.logitsT (V m c main_v0) (V m c main_v1))
    (fun t _ => written_back_eq m c t) result_rows_covered

/-! ## The program's result -/

/-- After the host's transpose of the region's result, the program's result is the specification's logits of the two
    arguments: entry (b, r) is entry (r, b) of the region's result, ∑ k, protoᵀ(k, r) · xᵀ(k, b) = ∑ k, x(b, k) · proto(r, k). -/
theorem result_eq (c : Dev nD) :
    Pipeline.afterTail₀ cfgs (dats (F := Ideal) m) 0 (V0 m) [hostOps1] c main_v3
      = Cert.Spec.logits (m ((c : Thread nD τ).loc main_arg0)) (m ((c : Thread nD τ).loc main_arg1)) := by
  unfold Pipeline.afterTail₀
  show StableHlo.after hostOps1 _ (Proc.devRef .tc main_v3) = _
  after_results
  have hreg : Pipeline.withArrays (cfgs 0).spec c (V0 m c) (fun w => (dats (F := Ideal) m 0 c).arrAt w (cfgs 0).N)
      (Proc.devRef .tc main_v2) = Cert.Spec.logitsT (V m c main_v0) (V m c main_v1) :=
    (Pipeline.withArrays_arr spec0 launch0.win.arr_inj c _ _ 2).trans (region_result m c)
  rw [hreg]
  funext i
  obtain ⟨b, r, rfl⟩ : ∃ (b : Fin 1024) (r : Fin 100000), i = ix2 b r := ⟨i 0, i 1, eq_ix2 i⟩
  refine (transpose_apply [1, 0] _ transposes_S100000x1024_S1024x100000_1_0 (ix2 b r) (ix2 r b) (fun a => match a with
    | ⟨0, _⟩ => rfl
    | ⟨1, _⟩ => rfl)).trans ?_
  unfold Cert.Spec.logitsT Cert.Spec.logits
  refine Finset.sum_congr rfl fun k _ => ?_
  exact (congrArg₂ (fun a b : EReal => a * b) (V_main_v1_apply m c k r) (V_main_v0_apply m c k b)).trans (mul_comm _ _)

end Cert.KernelIdeal.Hand

end
-- ==== Proof.IdealResult.lean ====
/-
  The idealized kernel's run, read at the program's result and at its two arguments: the result ends holding the
  logits of the arguments (the region's array of the transposed product, transposed by the host line after the
  region), and the arguments, which no line writes and the region does not stage, end as launched.
-/
import proofs.«107859_g32152125178478_cont_8to1_b_1599_33_alg».proof.Proof.Gen.KernelIdeal.Frame
import proofs.«107859_g32152125178478_cont_8to1_b_1599_33_alg».proof.Proof.Gen.KernelIdeal.Skeleton
import Idealize.ShloMosaic.Lib.Pipeline.Value
import proofs.«107859_g32152125178478_cont_8to1_b_1599_33_alg».proof.Proof.IdealRun
import proofs.«107859_g32152125178478_cont_8to1_b_1599_33_alg».proof.Proof.IdealValue
import proofs.«107859_g32152125178478_cont_8to1_b_1599_33_alg».proof.Proof.Spec
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt Ideal) ℓ) (ρ : Dev nD → PrngReg)

/-- The idealized kernel's run: the result ends holding the logits of the two argument arrays, and the two argument
    arrays end as launched. -/
theorem run : θ_run defs (onTc (τ := τ) (main (F := Ideal))) ⟨m, fun _ => 0, ρ⟩ (fun r => ∀ c : Dev nD,
      r.2.mem ((c.tc : Thread nD τ).loc main_v3)
        = Cert.Spec.logits (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_v3 (Pipeline.mem_restRefs_of main_v3 (by decide) (by decide))).trans (result_eq m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c)⟩)
    (run_main m ρ)

end Cert.KernelIdeal.Hand

end
-- ==== Proof.RefValue.lean ====
/-
  The reference's result, read at an entry: the host's product of `x` (1024 × 64) with the transposed prototypes
  (64 × 100000), contracting the width. Entry (b, r) is ∑ k, x(b, k) · proto(r, k): the specification's logits.
-/
import proofs.«107859_g32152125178478_cont_8to1_b_1599_33_alg».proof.Proof.Gen.ReferenceIdeal.Read
import proofs.«107859_g32152125178478_cont_8to1_b_1599_33_alg».proof.Proof.Spec

noncomputable section

namespace Cert.ReferenceIdeal.RefValue

open Cert.ReferenceIdeal Cert.ReferenceIdeal.Gen Cert.ReferenceIdeal.Read
open Idealize.ShloMosaic Idealize.ShloMosaic.ValueIdx

/-- The reference computes the logits. -/
theorem ref_eq (x0 : (⟨S1024x64, .f32⟩ : BufTy).Contents (Elt Ideal)) (x1 : (⟨S100000x64, .f32⟩ : BufTy).Contents (Elt Ideal)) :
    val_main_v1 (F := Ideal) x0 x1 = Cert.Spec.logits x0 x1 := by
  funext i
  rw [val_main_v1_apply]
  unfold Cert.Spec.logits
  refine Finset.sum_congr rfl fun k _ => ?_
  rw [val_main_v0_apply]
  have e0 : lidx_main_v1 i k = ix2 (i 0 : Fin 1024) k :=
    funext fun a => Fin.ext (by match a with | ⟨0, _⟩ => rfl | ⟨1, _⟩ => rfl)
  have e1 : idx_main_v0 (ridx_main_v1 i k) = ix2 (i 1 : Fin 100000) k :=
    funext fun a => Fin.ext (by match a with | ⟨0, _⟩ => rfl | ⟨1, _⟩ => rfl)
  rw [e0, e1]
  rfl

end Cert.ReferenceIdeal.RefValue

end
-- ==== Proof.lean ====
/- The proof of `Cert.Claim`: the similarity logits out(b, r) = ∑ k, x(b, k) · proto(r, k) (1024 × 100000, width 64).

   The kernel computes the TRANSPOSED product tile by tile: the grid's point t forms rows 5120·t ‥ of
   outᵀ = proto · xᵀ from 5120 columns of protoᵀ and the whole of xᵀ, and @main transposes the result back. The
   reference forms x · protoᵀ in one product. Over the extended reals each entry is, on both sides, the same sum of 64
   products up to the order of the two factors, so one commutation of a product joins them; no finiteness is used.
   20 · 5120 = 102400 > 100000: the last tile overhangs the arrays. Its fetch names only the 2720 columns inside the
   array and its write-back writes only the 2720 rows inside the array; since row p of a tile reads column p of the
   staged block alone, the rows written are computed from named columns (Proof/IdealRun.lean, Proof/IdealValue.lean).
   The frames: the word-level kernel's with the result's window left undescribed (Proof/BitsFrame.lean); the
   idealized kernel's and the reference's are their runs with the result dropped. The idealization rewrote nothing. -/
import proofs.«107859_g32152125178478_cont_8to1_b_1599_33_alg».proof.Defs
import proofs.«107859_g32152125178478_cont_8to1_b_1599_33_alg».proof.Proof.Gen.Kernel
import proofs.«107859_g32152125178478_cont_8to1_b_1599_33_alg».proof.Proof.Gen.KernelIdeal
import proofs.«107859_g32152125178478_cont_8to1_b_1599_33_alg».proof.Proof.Gen.ReferenceIdeal
import proofs.«107859_g32152125178478_cont_8to1_b_1599_33_alg».proof.Proof.Gen.Pre_finite_inputs
import proofs.«107859_g32152125178478_cont_8to1_b_1599_33_alg».proof.Proof.Gen.ReferenceIdeal.Run
import proofs.«107859_g32152125178478_cont_8to1_b_1599_33_alg».proof.Proof.Gen.ReferenceIdeal.Read
import proofs.«107859_g32152125178478_cont_8to1_b_1599_33_alg».proof.Proof.BitsFrame
import proofs.«107859_g32152125178478_cont_8to1_b_1599_33_alg».proof.Proof.IdealResult
import proofs.«107859_g32152125178478_cont_8to1_b_1599_33_alg».proof.Proof.RefValue
import proofs.«107859_g32152125178478_cont_8to1_b_1599_33_alg».proof.Proof.Spec
import Idealize.ShloMosaic.Adequacy
import Idealize.ShloMosaic.Init

noncomputable section

namespace Cert.Proof

open Idealize.ShloMosaic Idealize.ShloMosaic.TcCoe Idealize.SL.Sem

/-- The word-level kernel runs to the end, faults nowhere and leaves its two arguments as launched. -/
theorem frame_k : Cert.frame_Kernel := fun m ρ _ => Cert.Kernel.Hand.frame (F := Bits) m ρ

/-- So does the idealized kernel: its run with the result dropped. -/
theorem frame_ki : Cert.frame_KernelIdeal := fun m ρ _ =>
  (θ_run Cert.KernelIdeal.defs _ _).mono (fun _ h c => (h c).2) (Cert.KernelIdeal.Hand.run m ρ)

/-- And the reference: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing: there is nothing to preserve. -/
theorem preserves : Cert.preserves_Kernel_KernelIdeal := trivial

/-- Over the extended reals both programs end with the logits ∑ k, x(b, k) · proto(r, k) of their (equal) arguments:
    the kernel's tiles of the transposed product, transposed back, against the reference's one product. -/
theorem algebraic : Cert.algebraic_KernelIdeal_ReferenceIdeal := by
  intro m ρ m' ρ' _ hagree
  refine ⟨fun c => Cert.Spec.logits (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Hand.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v1_eq, Cert.ReferenceIdeal.RefValue.ref_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
